-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S8x128 .f32) (main_v33 : IVec S_ 1) : IVec S_ 1 :=
  let main_v34 : FVec F S8x128 .f32 := Host.absf main_arg8
  let main_cst_12 : FVec F S_ .f32 := constant S_ .f32 0x7F800000#32
  let main_v35 : FVec F S8x128 .f32 := broadcastInDim S8x128 ![] bcast_S_S8x128 main_cst_12
  let main_v36 : IVec S8x128 1 := cmpf .olt main_v34 main_v35
  let main_c_13 : IVec S_ 1 := constantI S_ 1 1#1
  let main_v37 : IVec S_ 1 := (fun x v => Host.reduce IntOp.andi x v reducesTo_S8x128_S_d0_1 h_S_) main_v36 main_c_13
  let main_v38 : IVec S_ 1 := andi main_v33 main_v37
  main_v38

def fn_part1 {F : FTy → Type} [FloatOps F] (main_arg5 : FVec F S128x128 .f32) (main_arg6 : FVec F S8x128 .f32) (main_arg7 : FVec F S8 .f32) (main_arg8 : FVec F S8x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S50000x128 .f32) (main_arg3 : FVec F S128x128 .f32) (main_arg4 : FVec F S128 .f32) (main_arg5 : FVec F S128x128 .f32) (main_arg6 : FVec F S8x128 .f32) (main_arg7 : FVec F S8 .f32) (main_arg8 : FVec F S8x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S128x8 : Shape := ⟨2, ![128, 8]⟩
abbrev S1x8 : Shape := ⟨2, ![1, 8]⟩
abbrev S50000x8 : Shape := ⟨2, ![50000, 8]⟩
abbrev S2000x8 : Shape := ⟨2, ![2000, 8]⟩
abbrev S2000 : Shape := ⟨1, ![2000]⟩
abbrev S2000x1 : Shape := ⟨2, ![2000, 1]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S8x128, .f32⟩
  | .hbm, ⟨7, _⟩ => ⟨S8, .f32⟩
  | .hbm, ⟨8, _⟩ => ⟨S8x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S128x8, .f32⟩
  | .hbm, ⟨58, _⟩ => ⟨S128x8, .f32⟩
  | .hbm, ⟨59, _⟩ => ⟨S1x8, .f32⟩
  | .hbm, ⟨60, _⟩ => ⟨S50000x8, .f32⟩
  | .hbm, ⟨61, _⟩ => ⟨S50000x8, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x8, .f32⟩
  | .local _ .vmem, ⟨16, _⟩ => ⟨S1x8, .f32⟩
  | .local _ .vmem, ⟨17, _⟩ => ⟨S128x8, .f32⟩
  | .local _ .vmem, ⟨18, _⟩ => ⟨S2000x8, .f32⟩
  | .local _ .vmem, ⟨19, _⟩ => ⟨S2000x8, .f32⟩
  | .local _ .vmem, ⟨20, _⟩ => ⟨S2000x8, .f32⟩
  | .local _ .vmem, ⟨21, _⟩ => ⟨S2000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S8x128_S128x8_1_0 : S8x128.Transposes [1, 0] S128x8
  shapeCasts_S8_S1x8 : S8.ShapeCasts S1x8
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  reduces_S2000x8_S2000 : S2000x8.Reduces [1] S2000
  shapeCasts_S2000_S2000x1 : S2000.ShapeCasts S2000x1
  broadcasts_S2000x1_S2000x8 : S2000x1.Broadcasts S2000x8
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x8.size a ≤ S128x8.size a
  hwx1_4 : ∀ i : grid1.Coords, EltTy.bits .f32 = 32 ∨ (Rect.block (s := S128x8) S128x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x8.size a ≤ S50000x8.size a
  hwx1_5 : ∀ i : grid1.Coords, EltTy.bits .f32 = 32 ∨ (Rect.block (s := S50000x8) S2000x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x8.size a ≤ S50000x8.size a
  hwx1_6 : ∀ i : grid1.Coords, EltTy.bits .f32 = 32 ∨ (Rect.block (s := S50000x8) S2000x8.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42_0) S2000x8.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42_1) S2000x8.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S8x128 : Shape := ⟨2, ![8, 128]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x8 : Shape := ⟨2, ![128, 8]⟩
abbrev S50000x8 : Shape := ⟨2, ![50000, 8]⟩
abbrev S1x8 : Shape := ⟨2, ![1, 8]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S8x128, .f32⟩
  | .hbm, ⟨7, _⟩ => ⟨S8, .f32⟩
  | .hbm, ⟨8, _⟩ => ⟨S8x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x8, .f32⟩
  | .hbm, ⟨76, _⟩ => ⟨S50000x8, .f32⟩
  | .hbm, ⟨77, _⟩ => ⟨S1x8, .f32⟩
  | .hbm, ⟨78, _⟩ => ⟨S50000x8, .f32⟩
  | .hbm, ⟨79, _⟩ => ⟨S50000x8, .f32⟩
  | .hbm, ⟨80, _⟩ => ⟨S128x8, .f32⟩
  | .hbm, ⟨81, _⟩ => ⟨S50000x8, .f32⟩
  | .hbm, ⟨82, _⟩ => ⟨S50000x8, .f32⟩
  | .hbm, ⟨83, _⟩ => ⟨S_, .f32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x8, .f32⟩
  | .hbm, ⟨90, _⟩ => ⟨S50000x8, .f32⟩
  | .hbm, ⟨91, _⟩ => ⟨S50000x8, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S50000x8, .f32⟩
  | .hbm, ⟨97, _⟩ => ⟨S50000x8, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_call1_cst_0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_cst_1 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_v60 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S8x128_S128x8_1_0 : S8x128.Transposes [1, 0] S128x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000x1_S50000x8_0_1 : S50000x1.BroadcastsInDim S50000x8 (![0, 1] : Fin 2 → Fin S50000x8.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x8_S50000x8_1_0_0_1_n_n_wf : DotDims.WF S50000x128 S128x8 S50000x8 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.KernelRun.lean ====
/-
  The idealized kernel's run, with its two result arrays read.

  The program is two kernel regions among two stretches of host operations.  Every weakly fair execution from a memory
  with zero counters terminates without a fault, and in the final state the two result buffers hold what region 1's
  pipeline leaves in its two output arrays — each output's write-backs folded over the grid, from region 1's entry
  contents — while the nine argument arrays hold what they held at launch.  The entry contents of region 1 are the
  second host stretch applied to region 0's exit contents, and so on back to the launch memory.
-/
import proofs.«178852_j52999896432995_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's four segments, the last thread state read against the final state; each
    result buffer is an output array of region 1, so it holds what that region's pipeline leaves there. -/
theorem run : θ_run defs (onTc (τ := τ) (main (F := F))) ⟨m, fun _ => 0, ρ⟩ (fun r => ∀ c : Dev nD,
      r.2.mem ((c.tc : Thread nD τ).loc main_v42_0) = (dat1 (V3 m ρ) c).arrAt 5 cfg1.N
      ∧ r.2.mem ((c.tc : Thread nD τ).loc main_v42_1) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v42_0 (by decide))).trans (W4_arr m ρ c 5),
       (h c _ (mem_uc main_v42_1 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Spec.lean ====
/-
  The two graph-convolution layers as functions of whole arrays, entry by entry.

  A linear layer's entry at row p and column q is
      (Σ_k agg[p,k] · wr[k,q]) + b[0,q] + Σ_k x[p,k] · wo[k,q] ,
  the aggregated neighbour features times one weight matrix, plus a bias row, plus the node's own features times a
  second weight matrix.  The hidden layer clamps that entry below at zero and multiplies it by the keep mask's entry.
  The output layer keeps the entry as it is, and beside it gives the row's log-softmax: the entry minus the row's
  maximum, minus the logarithm of the sum over the row of the exponentials of (entry minus maximum).  A row's
  maximum is the fold of max over the row's entries from negative infinity.

  Everything is stated over the extended reals, with rows and columns as literal-size finite types, so that a block of
  rows of an array and the whole array are instances of the same definitions.
-/
import Idealize.ShloMosaic.Lib.ValueIdx
import Idealize.ShloMosaic.PureOps.Ideal.Laws

noncomputable section

namespace Cert.GraphSpec

open Idealize.ShloMosaic Idealize.ShloMosaic.ValueIdx

variable {n d e : ℕ}

/-- One entry of a linear layer: row `p` of `agg` against column `q` of `wr`, plus the bias, plus row `p` of `x` against
    column `q` of `wo`. -/
def linAt (agg x : FVec Ideal ⟨2, ![n, d]⟩ .f32) (wr wo : FVec Ideal ⟨2, ![d, e]⟩ .f32) (b : FVec Ideal ⟨2, ![1, e]⟩ .f32)
    (p : Fin n) (q : Fin e) : EReal :=
  (∑ k : Fin d, agg (ix2 p k) * wr (ix2 k q)) + b (ix2 (0 : Fin 1) q) + ∑ k : Fin d, x (ix2 p k) * wo (ix2 k q)

/-- One entry of the hidden layer: the linear entry clamped below at zero, times the mask's entry. -/
def hiddenAt (agg x : FVec Ideal ⟨2, ![n, d]⟩ .f32) (wr wo : FVec Ideal ⟨2, ![d, e]⟩ .f32) (b : FVec Ideal ⟨2, ![1, e]⟩ .f32)
    (mask : FVec Ideal ⟨2, ![n, e]⟩ .f32) (p : Fin n) (q : Fin e) : EReal :=
  max (linAt agg x wr wo b p q) (Ideal.ofBits .f32 0x00000000#32) * mask (ix2 p q)

/-- A row's maximum: the fold of max over its entries, from negative infinity. -/
def rowMax (h : Fin e → EReal) : EReal := (Finset.univ : Finset (Fin e)).fold max (Ideal.ofBits .f32 0xFF800000#32) h

/-- One entry of a row's log-softmax. -/
def logsmAt (h : Fin e → EReal) (q : Fin e) : EReal :=
  (h q - rowMax h) - Ideal.log (∑ j : Fin e, Ideal.exp (h j - rowMax h))

/-- The linear layer as an array. -/
def lin (agg x : FVec Ideal ⟨2, ![n, d]⟩ .f32) (wr wo : FVec Ideal ⟨2, ![d, e]⟩ .f32) (b : FVec Ideal ⟨2, ![1, e]⟩ .f32) :
    FVec Ideal ⟨2, ![n, e]⟩ .f32 := fun i => linAt agg x wr wo b (i 0) (i 1)

/-- The hidden layer as an array. -/
def hidden (agg x : FVec Ideal ⟨2, ![n, d]⟩ .f32) (wr wo : FVec Ideal ⟨2, ![d, e]⟩ .f32) (b : FVec Ideal ⟨2, ![1, e]⟩ .f32)
    (mask : FVec Ideal ⟨2, ![n, e]⟩ .f32) : FVec Ideal ⟨2, ![n, e]⟩ .f32 := fun i => hiddenAt agg x wr wo b mask (i 0) (i 1)

/-- The row-wise log-softmax of the linear layer, as an array. -/
def logsm (agg x : FVec Ideal ⟨2, ![n, d]⟩ .f32) (wr wo : FVec Ideal ⟨2, ![d, e]⟩ .f32) (b : FVec Ideal ⟨2, ![1, e]⟩ .f32) :
    FVec Ideal ⟨2, ![n, e]⟩ .f32 := fun i => logsmAt (fun j => linAt agg x wr wo b (i 0) j) (i 1)

theorem lin_ix2 (agg x : FVec Ideal ⟨2, ![n, d]⟩ .f32) (wr wo : FVec Ideal ⟨2, ![d, e]⟩ .f32) (b : FVec Ideal ⟨2, ![1, e]⟩ .f32)
    (p : Fin n) (q : Fin e) : lin agg x wr wo b (ix2 p q) = linAt agg x wr wo b p q := rfl

theorem hidden_ix2 (agg x : FVec Ideal ⟨2, ![n, d]⟩ .f32) (wr wo : FVec Ideal ⟨2, ![d, e]⟩ .f32) (b : FVec Ideal ⟨2, ![1, e]⟩ .f32)
    (mask : FVec Ideal ⟨2, ![n, e]⟩ .f32) (p : Fin n) (q : Fin e) :
    hidden agg x wr wo b mask (ix2 p q) = hiddenAt agg x wr wo b mask p q := rfl

theorem logsm_ix2 (agg x : FVec Ideal ⟨2, ![n, d]⟩ .f32) (wr wo : FVec Ideal ⟨2, ![d, e]⟩ .f32) (b : FVec Ideal ⟨2, ![1, e]⟩ .f32)
    (p : Fin n) (q : Fin e) : logsm agg x wr wo b (ix2 p q) = logsmAt (fun j => linAt agg x wr wo b p j) q := rfl

/-- The maximum of negative infinity and a row's maximum is the row's maximum. -/
theorem max_bot_rowMax (h : Fin e → EReal) : max (Ideal.ofBits .f32 0xFF800000#32) (rowMax h) = rowMax h :=
  max_eq_right ((Finset.le_fold_max (s := (Finset.univ : Finset (Fin e))) (b := Ideal.ofBits .f32 0xFF800000#32) (f := h)
    (c := Ideal.ofBits .f32 0xFF800000#32)).2 (Or.inl le_rfl))

end Cert.GraphSpec

end
-- ==== Proof.BiasRow.lean ====
/-
  The bias vector as a one-row matrix, and the layers' dependence on it.

  A vector of n entries can be viewed as a 1 × n matrix in two ways: by a reshape (the row-major position of entry q
  is q in both shapes), or by a broadcast that sends the vector's axis to the matrix's second axis.  Either way the
  matrix's entry (0, q) is the vector's entry q.  A layer reads its bias matrix only at the entries (0, q), so two bias
  matrices that agree there give the same layer.
-/
import proofs.«178852_j52999896432995_1_alg».proof.Proof.Spec
import Idealize.ShloMosaic.Lib.Pipeline.Value
import Idealize.ShloMosaic.Lib.ValueIdx

noncomputable section

namespace Cert.BiasRow

open Idealize.ShloMosaic Idealize.ShloMosaic.ValueIdx Cert.GraphSpec

variable {α : Type}

/-- The reshape: entry (0, q) of the row is entry q of the vector. -/
theorem shapeCast_row_apply {n : ℕ} (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h _ _ (by
    rw [Shape.rowMajor_val_one, Shape.rowMajor_val_two]
    show q.val = 0 * n + q.val
    omega)

/-- The broadcast along a new leading axis: entry (0, q) of the row is entry q of the vector. -/
theorem broadcastInDim_row_apply {n : ℕ} (v : (⟨1, ![n]⟩ : Shape).Idx → α)
    (h : (⟨1, ![n]⟩ : Shape).BroadcastsInDim ⟨2, ![1, n]⟩ ![1]) (q : Fin n) :
    broadcastInDim ⟨2, ![1, n]⟩ ![1] h v (ix2 (0 : Fin 1) q) = v (ix1 q) :=
  broadcastInDim_apply _ h v _ _ (fun a => match a with
    | ⟨0, _⟩ => by
      show q.val = if n = 1 then 0 else q.val
      have := q.isLt
      split <;> omega)

variable {n d e : ℕ}

/-- A linear layer's entry depends on the bias matrix only through its entries (0, q). -/
theorem linAt_congr_bias (agg x : FVec Ideal ⟨2, ![n, d]⟩ .f32) (wr wo : FVec Ideal ⟨2, ![d, e]⟩ .f32)
    (b b' : FVec Ideal ⟨2, ![1, e]⟩ .f32) (hb : ∀ q : Fin e, b (ix2 (0 : Fin 1) q) = b' (ix2 (0 : Fin 1) q)) (p : Fin n) (q : Fin e) :
    linAt agg x wr wo b p q = linAt agg x wr wo b' p q := by
  unfold linAt
  rw [hb q]

theorem lin_congr_bias (agg x : FVec Ideal ⟨2, ![n, d]⟩ .f32) (wr wo : FVec Ideal ⟨2, ![d, e]⟩ .f32)
    (b b' : FVec Ideal ⟨2, ![1, e]⟩ .f32) (hb : ∀ q : Fin e, b (ix2 (0 : Fin 1) q) = b' (ix2 (0 : Fin 1) q)) :
    lin agg x wr wo b = lin agg x wr wo b' :=
  funext fun i => linAt_congr_bias agg x wr wo b b' hb (i 0) (i 1)

theorem hiddenAt_congr_bias (agg x : FVec Ideal ⟨2, ![n, d]⟩ .f32) (wr wo : FVec Ideal ⟨2, ![d, e]⟩ .f32)
    (b b' : FVec Ideal ⟨2, ![1, e]⟩ .f32) (mask : FVec Ideal ⟨2, ![n, e]⟩ .f32)
    (hb : ∀ q : Fin e, b (ix2 (0 : Fin 1) q) = b' (ix2 (0 : Fin 1) q)) (p : Fin n) (q : Fin e) :
    hiddenAt agg x wr wo b mask p q = hiddenAt agg x wr wo b' mask p q := by
  unfold hiddenAt
  rw [linAt_congr_bias agg x wr wo b b' hb p q]

theorem hidden_congr_bias (agg x : FVec Ideal ⟨2, ![n, d]⟩ .f32) (wr wo : FVec Ideal ⟨2, ![d, e]⟩ .f32)
    (b b' : FVec Ideal ⟨2, ![1, e]⟩ .f32) (mask : FVec Ideal ⟨2, ![n, e]⟩ .f32)
    (hb : ∀ q : Fin e, b (ix2 (0 : Fin 1) q) = b' (ix2 (0 : Fin 1) q)) :
    hidden agg x wr wo b mask = hidden agg x wr wo b' mask :=
  funext fun i => hiddenAt_congr_bias agg x wr wo b b' mask hb (i 0) (i 1)

theorem logsmAt_row_congr (h h' : Fin e → EReal) (hh : ∀ j, h j = h' j) (q : Fin e) : logsmAt h q = logsmAt h' q := by
  rw [show h = h' from funext hh]

theorem logsm_congr_bias (agg x : FVec Ideal ⟨2, ![n, d]⟩ .f32) (wr wo : FVec Ideal ⟨2, ![d, e]⟩ .f32)
    (b b' : FVec Ideal ⟨2, ![1, e]⟩ .f32) (hb : ∀ q : Fin e, b (ix2 (0 : Fin 1) q) = b' (ix2 (0 : Fin 1) q)) :
    logsm agg x wr wo b = logsm agg x wr wo b' :=
  funext fun i => logsmAt_row_congr _ _ (fun j => linAt_congr_bias agg x wr wo b b' hb (i 0) j) (i 1)

end Cert.BiasRow

end
-- ==== Proof.HostChain.lean ====
/-
  The arrays each kernel region finds at its entry, as functions of the launch memory.

  Before region 0 the host computes, from the node features x and the edge list, the mean over each node's incoming
  edges of the source nodes' features (a gather of source rows, a scatter-add onto destination rows, a division by the
  clamped in-degree), transposes the two weight matrices and views the bias vector as a one-row matrix.  Region 0 then
  writes the hidden features H.  Before region 1 the host computes the same neighbourhood mean of H — reusing the source
  and destination index vectors and the clamped in-degree column it computed before region 0, which region 0 does not
  touch — and prepares the second layer's weights and bias in the same way.

  Each of these arrays is stated here as the reference program's own stage function of the same inputs: the neighbourhood
  mean is ONE function of a feature array and the edge list, applied first to x and then to H.
-/
import proofs.«178852_j52999896432995_1_alg».proof.Proof.Gen.KernelIdeal.Frame
import proofs.«178852_j52999896432995_1_alg».proof.Proof.RefRead
import Idealize.ShloMosaic.Lib.StableHlo.Run

set_option maxRecDepth 16384

noncomputable section

namespace Cert.KernelIdeal.HostChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Region 0's entry arrays -/

/-- The neighbourhood mean of the node features. -/
theorem entry0_agg : V1 m ρ c main_v22
    = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

/-- The node features themselves. -/
theorem entry0_x : V1 m ρ c main_arg0 = m ((c : Thread nD τ).loc main_arg0) := by
  show StableHlo.after hostOps0 (W0 m ρ c) (Proc.devRef .tc main_arg0) = _
  after_results_simp

/-- The keep mask. -/
theorem entry0_mask : V1 m ρ c main_arg2 = m ((c : Thread nD τ).loc main_arg2) := by
  show StableHlo.after hostOps0 (W0 m ρ c) (Proc.devRef .tc main_arg2) = _
  after_results_simp

/-- The first weight matrix of layer 1, transposed. -/
theorem entry0_wr : V1 m ρ c main_v23
    = Cert.ReferenceIdeal.Read.val_main_v23 (F := Ideal) (m ((c : Thread nD τ).loc main_arg3)) := by
  show StableHlo.after hostOps0 (W0 m ρ c) (Proc.devRef .tc main_v23) = _
  after_results_simp
  rfl

/-- The second weight matrix of layer 1, transposed. -/
theorem entry0_wo : V1 m ρ c main_v24
    = Cert.ReferenceIdeal.Read.val_main_v28 (F := Ideal) (m ((c : Thread nD τ).loc main_arg5)) := by
  show StableHlo.after hostOps0 (W0 m ρ c) (Proc.devRef .tc main_v24) = _
  after_results_simp
  rfl

/-- Layer 1's bias vector viewed as a one-row matrix. -/
theorem entry0_b : V1 m ρ c main_v25
    = shapeCast S1x128 (m ((c : Thread nD τ).loc main_arg4)) shapeCasts_S128_S1x128 := by
  show StableHlo.after hostOps0 (W0 m ρ c) (Proc.devRef .tc main_v25) = _
  after_results_simp
  rfl

/-! ## Region 1's entry arrays -/

/-- Region 0's output array, as region 1 finds it: no operation of the second stretch writes it. -/
theorem entry1_h : V3 m ρ c main_v26 = (dat0 (V1 m ρ) c).arrAt 6 cfg0.N := by
  show StableHlo.after hostOps1 (W2 m ρ c) (Proc.devRef .tc main_v26) = _
  after_results_simp
  exact W2_arr m ρ c 6

/-- The neighbourhood mean of the hidden features: the same function of a feature array and the edge list as before
    region 0, now of region 0's output array. -/
theorem entry1_agg : V3 m ρ c main_v38
    = Cert.ReferenceIdeal.Read.val_main_v22 (F := Ideal) ((dat0 (V1 m ρ) c).arrAt 6 cfg0.N) (m ((c : Thread nD τ).loc main_arg1)) := by
  show StableHlo.after hostOps1 (W2 m ρ c) (Proc.devRef .tc main_v38) = _
  after_results_simp
  have h26 : W2 m ρ c (Proc.devRef .tc main_v26) = (dat0 (V1 m ρ) c).arrAt 6 cfg0.N := W2_arr m ρ c 6
  rw [h26, W2_of_ne m ρ c main_v1 (by decide), W2_of_ne m ρ c main_v3 (by decide), W2_of_ne m ρ c main_v10 (by decide)]
  generalize (dat0 (V1 m ρ) c).arrAt 6 cfg0.N = H
  dsimp only [W1]
  after_results_simp
  rfl

/-- The first weight matrix of layer 2, transposed. -/
theorem entry1_wr : V3 m ρ c main_v39
    = Cert.ReferenceIdeal.Read.val_main_v52 (F := Ideal) (m ((c : Thread nD τ).loc main_arg6)) := by
  show StableHlo.after hostOps1 (W2 m ρ c) (Proc.devRef .tc main_v39) = _
  after_results_simp
  rw [W2_of_ne m ρ c main_arg6 (by decide)]
  dsimp only [W1]
  after_results_simp
  rfl

/-- The second weight matrix of layer 2, transposed. -/
theorem entry1_wo : V3 m ρ c main_v40
    = Cert.ReferenceIdeal.Read.val_main_v57 (F := Ideal) (m ((c : Thread nD τ).loc main_arg8)) := by
  show StableHlo.after hostOps1 (W2 m ρ c) (Proc.devRef .tc main_v40) = _
  after_results_simp
  rw [W2_of_ne m ρ c main_arg8 (by decide)]
  dsimp only [W1]
  after_results_simp
  rfl

/-- Layer 2's bias vector viewed as a one-row matrix. -/
theorem entry1_b : V3 m ρ c main_v41
    = shapeCast S1x8 (m ((c : Thread nD τ).loc main_arg7)) shapeCasts_S8_S1x8 := by
  show StableHlo.after hostOps1 (W2 m ρ c) (Proc.devRef .tc main_v41) = _
  after_results_simp
  rw [W2_of_ne m ρ c main_arg7 (by decide)]
  dsimp only [W1]
  after_results_simp
  rfl

end Cert.KernelIdeal.HostChain

end
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.Region0.lean ====
/-
  The value of the first region: the hidden layer.

  At each of the 25 points the body loads a block of 2000 rows of the aggregated features, of the node features and of
  the keep mask, and the two weight matrices and the bias row whole, and stores one block: the two block products added
  with the bias row, clamped below at zero, times the mask.  First that stored value is read entry by entry: it is the
  hidden layer's entry of the loaded blocks.  Then the blocks are put together: point t's block holds rows
  2000·t … 2000·t + 1999 of every row-blocked array, so what it writes back is that block of rows of the hidden layer
  of the whole arrays, and the 25 blocks tile the output array.
-/
import proofs.«178852_j52999896432995_1_alg».proof.Proof.Gen.KernelIdeal.Frame
import proofs.«178852_j52999896432995_1_alg».proof.Proof.Spec
import proofs.«178852_j52999896432995_1_alg».proof.Proof.LibColumnMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.ValueIdx Idealize.ShloMosaic.TcCoe Idealize.SL.Sem Cert.KernelIdeal Cert.KernelIdeal.Gen

/-! ## The body's stored value, entry by entry -/

/-- The block product's dimension numbers: axis 1 of the left operand against axis 0 of the right. -/
abbrev D : DotDims S2000x128 S128x128 S2000x128 := dot_S2000x128_S128x128_S2000x128_1_0_0_1_n_n

/-- For output entry (r, q) and contraction coordinate k, the left operand is read at (r, k). -/
theorem dot_lhs (r : Fin 2000) (q k : Fin 128) :
    D.lhsIdx (ix2 r q) ((contrEquiv1 D 128 rfl rfl).symm k) = ix2 r k :=
  funext fun a => Fin.ext (by
    match a with
    | ⟨0, _⟩ =>
      show (D.lhsIdx (ix2 r q) ((contrEquiv1 D 128 rfl rfl).symm k) 0).val = r.val
      unfold DotDims.lhsIdx
      rw [dif_neg (show ¬(0 : Fin S2000x128.rank) ∈ D.lhsBatch by decide), dif_pos (show (0 : Fin S2000x128.rank) ∈ D.lhsNonContracting by decide)]
      rfl
    | ⟨1, _⟩ => exact (D.lhsIdx_val_of_single rfl (ix2 r q) _).trans (contrEquiv1_symm_val D 128 rfl rfl k))

/-- For output entry (r, q) and contraction coordinate k, the right operand is read at (k, q). -/
theorem dot_rhs (r : Fin 2000) (q k : Fin 128) :
    D.rhsIdx (ix2 r q) ((contrEquiv1 D 128 rfl rfl).symm k) = ix2 k q :=
  funext fun a => Fin.ext (by
    match a with
    | ⟨0, _⟩ => exact (D.rhsIdx_val_of_single rfl (ix2 r q) _).trans (contrEquiv1_symm_val D 128 rfl rfl k)
    | ⟨1, _⟩ =>
      show (D.rhsIdx (ix2 r q) ((contrEquiv1 D 128 rfl rfl).symm k) 1).val = q.val
      unfold DotDims.rhsIdx
      rw [dif_neg (show ¬(1 : Fin S128x128.rank) ∈ D.rhsBatch by decide), dif_pos (show (1 : Fin S128x128.rank) ∈ D.rhsNonContracting by decide)]
      rfl)

/-- A block product into the zero accumulator, at entry (r, q): row r of the left operand against column q of the right. -/
theorem prod_apply (a : FVec Ideal S2000x128 .bf16) (b : FVec Ideal S128x128 .bf16) (r : Fin 2000) (q : Fin 128) :
    FloatOps.matmul D none a b (constant S2000x128 .f32 0x00000000#32) (ix2 r q) = ∑ k : Fin 128, a (ix2 r k) * b (ix2 k q) :=
  Cert.LibColumnMatmul.matmul_zero_single D none 128 rfl rfl a b (ix2 r q) (fun k => ix2 r k) (fun k => ix2 k q)
    (fun k => dot_lhs r q k) (fun k => dot_rhs r q k)

/-- The value the body stores, at entry (r, q) of the block: the hidden layer's entry of the loaded blocks.  The
    narrowing of each product operand to the shorter float format changes nothing over the extended reals, and the
    same-shape casts are identities. -/
theorem pay_apply (x0 x1 : Vec Ideal S2000x128 .f32) (x2 x4 : Vec Ideal S128x128 .f32) (x3 : Vec Ideal S1x128 .f32)
    (x5 : Vec Ideal S2000x128 .f32) (r : Fin 2000) (q : Fin 128) :
    k0_pay1 (F := Ideal) x0 x1 x2 x4 x3 x5 (ix2 r q) = Cert.GraphSpec.hiddenAt x0 x1 x2 x4 x3 x5 r q := by
  unfold k0_pay1
  simp only [shapeCast_self]
  show (max (FloatOps.matmul D none (truncf .bf16 x0 bitsLt_bf16_f32 : FVec Ideal S2000x128 .bf16) (truncf .bf16 x2 bitsLt_bf16_f32 : FVec Ideal S128x128 .bf16) (constant S2000x128 .f32 0x00000000#32) (ix2 r q)
        + broadcastTo S2000x128 x3 broadcasts_S1x128_S2000x128 (ix2 r q)
        + FloatOps.matmul D none (truncf .bf16 x1 bitsLt_bf16_f32 : FVec Ideal S2000x128 .bf16) (truncf .bf16 x4 bitsLt_bf16_f32 : FVec Ideal S128x128 .bf16) (constant S2000x128 .f32 0x00000000#32) (ix2 r q))
      (Ideal.ofBits .f32 0x00000000#32) * x5 (ix2 r q) : EReal) = _
  rw [prod_apply, prod_apply, broadcastTo_1b_ab_apply]
  rfl

/-! ## From the blocks to the array -/

/-- The hidden layer's entry of a block of rows is the entry of the whole arrays at the block's row: only row r of the
    two row-blocked operands and entry (r, q) of the mask are read, the weight matrices and the bias row are whole. -/
theorem hiddenAt_block {n : ℕ} (A X M : FVec Ideal ⟨2, ![n, 128]⟩ .f32) (a x m : FVec Ideal ⟨2, ![2000, 128]⟩ .f32)
    (wr wr' wo wo' : FVec Ideal ⟨2, ![128, 128]⟩ .f32) (b b' : FVec Ideal ⟨2, ![1, 128]⟩ .f32)
    (r : Fin 2000) (p : Fin n) (q : Fin 128)
    (ha : ∀ k : Fin 128, a (ix2 r k) = A (ix2 p k)) (hx : ∀ k : Fin 128, x (ix2 r k) = X (ix2 p k))
    (hm : m (ix2 r q) = M (ix2 p q)) (hwr : wr = wr') (hwo : wo = wo') (hb : b = b') :
    Cert.GraphSpec.hiddenAt a x wr wo b m r q = Cert.GraphSpec.hiddenAt A X wr' wo' b' M p q := by
  subst hwr hwo hb
  unfold Cert.GraphSpec.hiddenAt Cert.GraphSpec.linAt
  rw [hm]
  simp only [ha, hx]

/-- The zero offsets, as the constant function. -/
theorem zero_offsets : (![0, 0] : Fin 2 → Nat) = fun _ => 0 := funext fun a => by fin_cases a <;> rfl

/-- The windows' block indices, decided over the 25 points: the row-blocked windows sit at block (t, 0), the whole
    windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- The hidden layer of the arrays as the region finds them. -/
abbrev G (c : Dev nD) : S50000x128.Idx → EReal :=
  Cert.GraphSpec.hidden (n := 50000) (d := 128) (e := 128) (V c main_v22) (V c main_arg0) (V c main_v23) (V c main_v24) (V c main_v25) (V c main_arg2)

/-- What point t writes back is block t of the hidden layer of the arrays as the region finds them: entry (r, q) of
    the block is entry (2000·t + r, q) of the array, and each loaded block is its array read at those rows (the
    weight matrices and the bias row whole). -/
theorem written_back_eq (c : Dev nD) (t : Fin cfg0.N) :
    (dat0 (F := Ideal) V c).flushed 6 t = ((cfg0.win 6).blk t).view.read (Elt Ideal) (G V c) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets, View.ld_unit_zero (S := S1x128) zero_offsets]
  obtain ⟨e00, e01, e10, e11, e20, e21, e30, e31, e40, e41, e50, e51, e60, e61⟩ := block_indices t
  have hN : t.val < 25 := t.isLt
  funext j
  obtain ⟨r, q, rfl⟩ : ∃ (r : Fin 2000) (q : Fin 128), j = ix2 r q := ⟨j 0, j 1, eq_ix2 j⟩
  have hp : t.val * 2000 + r.val < 50000 := by have := r.isLt; omega
  show k0_pay1 (F := Ideal) (iblk0 V c 0 t) (iblk0 V c 1 t) (iblk0 V c 2 t) (iblk0 V c 4 t) (iblk0 V c 3 t) (iblk0 V c 5 t) (ix2 r q)
      = G V c (((cfg0.win 6).blk t).view.emb (ix2 r q))
  have hemb : ((cfg0.win 6).blk t).view.emb (ix2 r q) = ix2 (⟨t.val * 2000 + r.val, hp⟩ : Fin 50000) q := by
    funext a; apply Fin.ext
    match a with
    | ⟨0, _⟩ => show win0_6.index t (0 : Fin 2) * 2000 + 1 * r.val = t.val * 2000 + r.val; rw [e60]; omega
    | ⟨1, _⟩ => show win0_6.index t (1 : Fin 2) * 128 + 1 * q.val = q.val; rw [e61]; omega
  rw [hemb]
  refine (pay_apply _ _ _ _ _ _ r q).trans ?_
  refine (hiddenAt_block (V c main_v22) (V c main_arg0) (V c main_arg2) (iblk0 V c 0 t) (iblk0 V c 1 t) (iblk0 V c 5 t)
    (iblk0 V c 2 t) (V c main_v23) (iblk0 V c 4 t) (V c main_v24) (iblk0 V c 3 t) (V c main_v25) r ⟨t.val * 2000 + r.val, hp⟩ q
    ?_ ?_ ?_ ?_ ?_ ?_)
  · intro k
    show V c main_v22 (((cfg0.win 0).blk t).view.emb (ix2 r k)) = V c main_v22 (ix2 (⟨t.val * 2000 + r.val, hp⟩ : Fin 50000) k)
    refine congrArg _ (funext fun a => Fin.ext ?_)
    match a with
    | ⟨0, _⟩ => show win0_0.index t (0 : Fin 2) * 2000 + 1 * r.val = t.val * 2000 + r.val; rw [e00]; omega
    | ⟨1, _⟩ => show win0_0.index t (1 : Fin 2) * 128 + 1 * k.val = k.val; rw [e01]; omega
  · intro k
    show V c main_arg0 (((cfg0.win 1).blk t).view.emb (ix2 r k)) = V c main_arg0 (ix2 (⟨t.val * 2000 + r.val, hp⟩ : Fin 50000) k)
    refine congrArg _ (funext fun a => Fin.ext ?_)
    match a with
    | ⟨0, _⟩ => show win0_1.index t (0 : Fin 2) * 2000 + 1 * r.val = t.val * 2000 + r.val; rw [e10]; omega
    | ⟨1, _⟩ => show win0_1.index t (1 : Fin 2) * 128 + 1 * k.val = k.val; rw [e11]; omega
  · show V c main_arg2 (((cfg0.win 5).blk t).view.emb (ix2 r q)) = V c main_arg2 (ix2 (⟨t.val * 2000 + r.val, hp⟩ : Fin 50000) q)
    refine congrArg _ (funext fun a => Fin.ext ?_)
    match a with
    | ⟨0, _⟩ => show win0_5.index t (0 : Fin 2) * 2000 + 1 * r.val = t.val * 2000 + r.val; rw [e50]; omega
    | ⟨1, _⟩ => show win0_5.index t (1 : Fin 2) * 128 + 1 * q.val = q.val; rw [e51]; omega
  · funext y
    show V c main_v23 (((cfg0.win 2).blk t).view.emb y) = V c main_v23 y
    refine congrArg _ (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · funext y
    show V c main_v24 (((cfg0.win 4).blk t).view.emb y) = V c main_v24 y
    refine congrArg _ (funext fun a => Fin.ext ?_)
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; rw [e30]; omega
    | ⟨1, _⟩ => show win0_3.index t (1 : Fin 2) * 128 + 1 * (y 1).val = (y 1).val; rw [e31]; omega

/-- An index of the array is in point t's block iff each coordinate is in the block's range on its axis. -/
theorem mem_row_block (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v26).slice (win0_6.rect t)).set ↔ _
  rw [View.set_slice_whole, Rect.mem_set_unit]
  exact Iff.rfl

/-- Every index of the array is in the block of the point its row falls in: row p belongs to point p / 2000. -/
theorem rows_cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 2000 < 25 := by omega
  obtain ⟨-, -, -, -, -, -, -, -, -, -, -, -, e60, e61⟩ := block_indices ⟨(i 0).val / 2000, ht⟩
  refine ⟨⟨(i 0).val / 2000, ht⟩, flush0_6 _, ?_⟩
  rw [mem_row_block]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e61]; omega

/-- The array the region leaves in its output window: the hidden layer of the arrays as the region finds them. -/
theorem final (c : Dev nD) :
    (Gen.dat0 (F := Ideal) V c).arrAt 6 cfg0.N
      = Cert.GraphSpec.hidden (n := 50000) (d := 128) (e := 128) (V c main_v22) (V c main_arg0) (V c main_v23) (V c main_v24) (V c main_v25) (V c main_arg2) :=
  (Gen.dat0 (F := Ideal) V c).arrAt_eq_of_cover 6 (G V c) (fun t _ => written_back_eq V c t) rows_cover

end

end Cert.KernelIdeal.Region0

end
-- ==== Proof.Region1.lean ====
/-
  The value of the output-layer region: what its two output arrays hold once all 25 grid points have run.

  The body at grid point t loads block t (rows 2000·t … 2000·t+1999) of the aggregated and of the hidden features, and the
  two weight matrices and the bias row whole.  Its first store is, entry by entry,
      (Σ_k agg[r,k] · wr[k,q]) + b[0,q] + Σ_k x[r,k] · wo[k,q] ,
  the linear layer's entry: each matrix product into a zero accumulator is the sum over the one contracted axis, the
  change of float format before it is the identity over the extended reals, and the bias row is repeated down the rows.
  Its second store is that entry minus the row's maximum M, minus log Σ_j exp(entry_j − M): the maximum along a row
  from negative infinity is the fold of max over the row's eight entries, the sum along a row is the sum over them,
  and a column of 2000 values repeated across the eight columns reads its row's value.  So the second store at
  (r, q) is the log-softmax at q of row r of the first.

  An entry of a block of rows depends on the arrays only through the same row of each feature array, so block t of each
  output is the restriction to rows 2000·t … 2000·t+1999 of one function of the whole arrays; the 25 blocks tile the
  50000 rows (row p lies in block p / 2000), hence each output array ends holding that function.
-/
import proofs.«178852_j52999896432995_1_alg».proof.Proof.Gen.KernelIdeal.Frame
import proofs.«178852_j52999896432995_1_alg».proof.Proof.Spec
import proofs.«178852_j52999896432995_1_alg».proof.Proof.LibColumnMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.ValueIdx Idealize.ShloMosaic.TcCoe Idealize.SL.Sem Cert.KernelIdeal Cert.KernelIdeal.Gen

/-! ## The matrix product of a block of rows with a weight matrix, read at an entry -/

theorem dot_lhs_row (i : S2000x8.Idx) (k : dot_S2000x128_S128x8_S2000x8_1_0_0_1_n_n.contr.Idx) :
    (dot_S2000x128_S128x8_S2000x8_1_0_0_1_n_n.lhsIdx i k 0).val = (i 0).val := by
  unfold DotDims.lhsIdx
  rw [dif_neg (show ¬(0 : Fin S2000x128.rank) ∈ dot_S2000x128_S128x8_S2000x8_1_0_0_1_n_n.lhsBatch by decide),
    dif_pos (show (0 : Fin S2000x128.rank) ∈ dot_S2000x128_S128x8_S2000x8_1_0_0_1_n_n.lhsNonContracting by decide)]
  rfl

theorem dot_lhs_contr (i : S2000x8.Idx) (k : dot_S2000x128_S128x8_S2000x8_1_0_0_1_n_n.contr.Idx) :
    (dot_S2000x128_S128x8_S2000x8_1_0_0_1_n_n.lhsIdx i k 1).val = (k ⟨0, by decide⟩).val :=
  dot_S2000x128_S128x8_S2000x8_1_0_0_1_n_n.lhsIdx_val_of_single rfl i k

theorem dot_rhs_contr (i : S2000x8.Idx) (k : dot_S2000x128_S128x8_S2000x8_1_0_0_1_n_n.contr.Idx) :
    (dot_S2000x128_S128x8_S2000x8_1_0_0_1_n_n.rhsIdx i k 0).val = (k ⟨0, by decide⟩).val :=
  dot_S2000x128_S128x8_S2000x8_1_0_0_1_n_n.rhsIdx_val_of_single rfl i k

theorem dot_rhs_col (i : S2000x8.Idx) (k : dot_S2000x128_S128x8_S2000x8_1_0_0_1_n_n.contr.Idx) :
    (dot_S2000x128_S128x8_S2000x8_1_0_0_1_n_n.rhsIdx i k 1).val = (i 1).val := by
  unfold DotDims.rhsIdx
  rw [dif_neg (show ¬(1 : Fin S128x8.rank) ∈ dot_S2000x128_S128x8_S2000x8_1_0_0_1_n_n.rhsBatch by decide),
    dif_pos (show (1 : Fin S128x8.rank) ∈ dot_S2000x128_S128x8_S2000x8_1_0_0_1_n_n.rhsNonContracting by decide)]
  rfl

/-- A product of a [2000,128] block with a [128,8] matrix into the zero accumulator, read at row r and column q, is
    the sum over the 128 contracted coordinates k of the (r,k) entry times the (k,q) entry. -/
theorem matmul_read {φ₁ φ₂ : FTy} (a : FVec Ideal S2000x128 φ₁) (w : FVec Ideal S128x8 φ₂) (r : Fin 2000) (q : Fin 8) :
    matmul (F := Ideal) dot_S2000x128_S128x8_S2000x8_1_0_0_1_n_n none a w (constant S2000x8 .f32 0x00000000#32) (ix2 r q)
      = ∑ k : Fin 128, a (ix2 r k) * w (ix2 k q) := by
  refine Cert.LibColumnMatmul.matmul_zero_single dot_S2000x128_S128x8_S2000x8_1_0_0_1_n_n none 128 rfl rfl a w (ix2 r q)
    (fun k => ix2 r k) (fun k => ix2 k q) (fun k => ?_) (fun k => ?_)
  · have hk := contrEquiv1_symm_val dot_S2000x128_S128x8_S2000x8_1_0_0_1_n_n 128 rfl rfl k
    exact funext fun ax => Fin.ext (by
      match ax with
      | ⟨0, _⟩ => exact dot_lhs_row _ _
      | ⟨1, _⟩ => exact (dot_lhs_contr _ _).trans hk)
  · have hk := contrEquiv1_symm_val dot_S2000x128_S128x8_S2000x8_1_0_0_1_n_n 128 rfl rfl k
    exact funext fun ax => Fin.ext (by
      match ax with
      | ⟨0, _⟩ => exact (dot_rhs_contr _ _).trans hk
      | ⟨1, _⟩ => exact dot_rhs_col _ _)

/-! ## The two payloads at an entry of a block -/

/-- The first payload at row r, column q of a block: the linear layer's entry of the loaded blocks. The change of
    float format before each product is the identity over the extended reals. -/
theorem pay1_read (x0 x1 : Vec Ideal S2000x128 .f32) (x2 x4 : Vec Ideal S128x8 .f32) (x3 : Vec Ideal S1x8 .f32)
    (r : Fin 2000) (q : Fin 8) :
    k1_pay1 (F := Ideal) x0 x1 x2 x4 x3 (ix2 r q) = Cert.GraphSpec.linAt (n := 2000) (d := 128) (e := 8) x0 x1 x2 x4 x3 r q := by
  unfold k1_pay1
  simp only [shapeCast_self, addf_apply]
  rw [matmul_read, matmul_read, broadcastTo_1b_ab_apply]
  rfl

/-- The maximum along a row of a [2000,8] block, taken from negative infinity: the row's maximum. -/
theorem lane_max_read (src : FVec Ideal S2000x8 .f32) (r : Fin 2000) :
    multiReduction (F := Ideal) .maximumf [1] S2000 src 0xFF800000#32 reduces_S2000x8_S2000 (.inl rfl) rfl (ix1 r)
      = Cert.GraphSpec.rowMax (fun j : Fin 8 => src (ix2 r j)) := by
  refine (Ideal.multiReduction_maximumf_single src 0xFF800000#32 reduces_S2000x8_S2000 (.inl rfl) rfl (ix1 r)).trans ?_
  unfold Cert.GraphSpec.rowMax
  refine congrArg (fun f => (Finset.univ : Finset (Fin 8)).fold max (Ideal.ofBits .f32 0xFF800000#32) f)
    (funext fun k => congrArg src (funext fun ax => Fin.ext ?_))
  match ax with
  | ⟨0, _⟩ => rfl
  | ⟨1, _⟩ => rfl

/-- The sum along a row of a [2000,8] block. -/
theorem lane_sum_read (src : FVec Ideal S2000x8 .f32) (r : Fin 2000) :
    multiReduction (F := Ideal) .add [1] S2000 src 0x00000000#32 reduces_S2000x8_S2000 (.inl rfl) rfl (ix1 r)
      = ∑ j : Fin 8, src (ix2 r j) := by
  refine (Ideal.multiReduction_add_single src 0x00000000#32 reduces_S2000x8_S2000 (.inl rfl) rfl (ix1 r)).trans ?_
  refine Finset.sum_congr rfl fun k _ => congrArg src (funext fun ax => Fin.ext ?_)
  match ax with
  | ⟨0, _⟩ => rfl
  | ⟨1, _⟩ => rfl

/-- A vector of 2000 entries recast as a [2000,1] column keeps entry r at (r, 0). -/
theorem col_cast_read {α : Type} (v : S2000.Idx → α) (r : Fin 2000) (u : Fin 1) :
    shapeCast S2000x1 v shapeCasts_S2000_S2000x1 (ix2 r u) = v (ix1 r) :=
  shapeCast_apply v shapeCasts_S2000_S2000x1 (ix2 r u) (ix1 r) (by
    have hu : u.val = 0 := by omega
    rw [Shape.rowMajor_val_two, Shape.rowMajor_val_one]
    show r.val = r.val * 1 + u.val
    omega)

/-- The second payload at row r, column q of a block: the log-softmax, at q, of row r of the first payload. -/
theorem pay2_read (x0 x1 : Vec Ideal S2000x128 .f32) (x2 x4 : Vec Ideal S128x8 .f32) (x3 : Vec Ideal S1x8 .f32)
    (r : Fin 2000) (q : Fin 8) :
    k1_pay2 (F := Ideal) x0 x1 x2 x4 x3 (ix2 r q)
      = Cert.GraphSpec.logsmAt (fun j => Cert.GraphSpec.linAt (n := 2000) (d := 128) (e := 8) x0 x1 x2 x4 x3 r j) q := by
  unfold k1_pay2
  generalize hP : k1_pay1 (F := Ideal) x0 x1 x2 x4 x3 = P
  have hrow : (fun j : Fin 8 => P (ix2 r j)) = fun j => Cert.GraphSpec.linAt (n := 2000) (d := 128) (e := 8) x0 x1 x2 x4 x3 r j :=
    funext fun j => by rw [← hP]; exact pay1_read x0 x1 x2 x4 x3 r j
  rw [← hrow]
  simp only [subf_apply]
  rw [Cert.LibColumnMatmul.broadcastTo_a1_ab_apply, Cert.LibColumnMatmul.broadcastTo_a1_ab_apply]
  have hM : ∀ u : Fin 1, shapeCast S2000x1 (multiReduction (F := Ideal) .maximumf [1] S2000 P 0xFF800000#32
      reduces_S2000x8_S2000 (.inl rfl) rfl) shapeCasts_S2000_S2000x1 (ix2 r u) = Cert.GraphSpec.rowMax (fun j => P (ix2 r j)) :=
    fun u => (col_cast_read _ r u).trans (lane_max_read P r)
  rw [hM]
  unfold Cert.GraphSpec.logsmAt
  refine congrArg (fun z => P (ix2 r q) - Cert.GraphSpec.rowMax (fun j => P (ix2 r j)) - z) ?_
  refine congrArg Ideal.log ?_
  refine (col_cast_read _ r 0).trans ((lane_sum_read _ r).trans (Finset.sum_congr rfl fun j _ => ?_))
  refine congrArg Ideal.exp ?_
  show P (ix2 r j) - broadcastTo S2000x8 _ broadcasts_S2000x1_S2000x8 (ix2 r j) = _
  rw [Cert.LibColumnMatmul.broadcastTo_a1_ab_apply, hM]

/-! ## From blocks to the arrays

Grid point t handles rows 2000·t … 2000·t+1999: the two feature arrays and the two outputs are cut into 25 blocks of
2000 rows, the two weight matrices and the bias row are read whole at every point. -/

theorem zero_offsets : (![0, 0] : Fin 2 → Nat) = fun _ => 0 := funext fun a => by fin_cases a <;> rfl

/-- The block index of every window at every grid point, decided over the 25 points: the row-blocked windows sit at
    block (t, 0), the whole-array windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 25 := t.isLt

/-- What the body leaves in the first output's buffer, at an entry: the linear layer's entry of the input blocks. -/
theorem out5_entry (b0 b1 : Vec Ideal S2000x128 .f32) (b2 : Vec Ideal S128x8 .f32) (b3 : Vec Ideal S1x8 .f32)
    (b4 : Vec Ideal S128x8 .f32) (r : Fin 2000) (q : Fin 8) :
    Gen.out1_5 (F := Ideal) b0 b1 b2 b3 b4 (ix2 r q)
      = Cert.GraphSpec.linAt (n := 2000) (d := 128) (e := 8) b0 b1 b2 b4 b3 r q := by
  unfold Gen.out1_5
  rw [View.canon_unit_zero zero_offsets]
  simp only [View.ld_unit_zero (S := S2000x128) zero_offsets, View.ld_unit_zero (S := S128x8) zero_offsets,
    View.ld_unit_zero (S := S1x8) zero_offsets]
  exact pay1_read b0 b1 b2 b4 b3 r q

/-- What the body leaves in the second output's buffer, at an entry: the log-softmax of the row of linear entries. -/
theorem out6_entry (b0 b1 : Vec Ideal S2000x128 .f32) (b2 : Vec Ideal S128x8 .f32) (b3 : Vec Ideal S1x8 .f32)
    (b4 : Vec Ideal S128x8 .f32) (r : Fin 2000) (q : Fin 8) :
    Gen.out1_6 (F := Ideal) b0 b1 b2 b3 b4 (ix2 r q)
      = Cert.GraphSpec.logsmAt (fun j => Cert.GraphSpec.linAt (n := 2000) (d := 128) (e := 8) b0 b1 b2 b4 b3 r j) q := by
  unfold Gen.out1_6
  rw [View.canon_unit_zero zero_offsets]
  simp only [View.ld_unit_zero (S := S2000x128) zero_offsets, View.ld_unit_zero (S := S128x8) zero_offsets,
    View.ld_unit_zero (S := S1x8) zero_offsets]
  exact pay2_read b0 b1 b2 b4 b3 r q

/-- A linear entry depends on the feature arrays only through one row of each: blocks that agree with the arrays on
    that row give the same entry. -/
theorem linAt_rows (A0 A1 : FVec Ideal ⟨2, ![50000, 128]⟩ .f32) (b0 b1 : FVec Ideal ⟨2, ![2000, 128]⟩ .f32)
    (wr wo : FVec Ideal ⟨2, ![128, 8]⟩ .f32) (b : FVec Ideal ⟨2, ![1, 8]⟩ .f32) (r : Fin 2000) (p : Fin 50000) (q : Fin 8)
    (h0 : ∀ k : Fin 128, b0 (ix2 r k) = A0 (ix2 p k)) (h1 : ∀ k : Fin 128, b1 (ix2 r k) = A1 (ix2 p k)) :
    Cert.GraphSpec.linAt b0 b1 wr wo b r q = Cert.GraphSpec.linAt A0 A1 wr wo b p q := by
  unfold Cert.GraphSpec.linAt
  simp only [h0, h1]

section Blocks

variable (V : (c : Dev nD) → (b : Ref sig .tc) → Buf (Elt Ideal) ((c : Thread nD τ).loc b)) (c : Dev nD) (t : Fin cfg1.N)

/-- Row r of block t of the aggregated features is row 2000·t + r of the array. -/
theorem blk0_read (r : Fin 2000) (k : Fin 128) (hp : t.val * 2000 + r.val < 50000) :
    Gen.iblk1 V c 0 t (ix2 r k) = V c main_v38 (ix2 (⟨t.val * 2000 + r.val, hp⟩ : Fin 50000) k) := by
  obtain ⟨e0, e1, -⟩ := idx_facts t
  show V c main_v38 (((cfg1.win 0).blk t).view.emb (ix2 r k)) = _
  have h : ((cfg1.win 0).blk t).view.emb (ix2 r k) = ix2 (⟨t.val * 2000 + r.val, hp⟩ : Fin 50000) k := by
    funext a; apply Fin.ext
    match a with
    | ⟨0, _⟩ => show win1_0.index t (0 : Fin 2) * 2000 + 1 * r.val = t.val * 2000 + r.val; omega
    | ⟨1, _⟩ => show win1_0.index t (1 : Fin 2) * 128 + 1 * k.val = k.val; omega
  rw [h]

/-- Row r of block t of the hidden features is row 2000·t + r of the array. -/
theorem blk1_read (r : Fin 2000) (k : Fin 128) (hp : t.val * 2000 + r.val < 50000) :
    Gen.iblk1 V c 1 t (ix2 r k) = V c main_v26 (ix2 (⟨t.val * 2000 + r.val, hp⟩ : Fin 50000) k) := by
  obtain ⟨-, -, e0, e1, -⟩ := idx_facts t
  show V c main_v26 (((cfg1.win 1).blk t).view.emb (ix2 r k)) = _
  have h : ((cfg1.win 1).blk t).view.emb (ix2 r k) = ix2 (⟨t.val * 2000 + r.val, hp⟩ : Fin 50000) k := by
    funext a; apply Fin.ext
    match a with
    | ⟨0, _⟩ => show win1_1.index t (0 : Fin 2) * 2000 + 1 * r.val = t.val * 2000 + r.val; omega
    | ⟨1, _⟩ => show win1_1.index t (1 : Fin 2) * 128 + 1 * k.val = k.val; omega
  rw [h]

/-- The first weight matrix is read whole at every point. -/
theorem blk2_eq : (Gen.iblk1 V c 2 t : Vec Ideal S128x8 .f32) = V c main_v39 := by
  obtain ⟨-, -, -, -, e0, e1, -⟩ := idx_facts t
  funext y
  show V c main_v39 (((cfg1.win 2).blk t).view.emb y) = V c main_v39 y
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 8 + 1 * (y 1).val = (y 1).val; omega
  rw [h]

/-- The bias row is read whole at every point. -/
theorem blk3_eq : (Gen.iblk1 V c 3 t : Vec Ideal S1x8 .f32) = V c main_v41 := by
  obtain ⟨-, -, -, -, -, -, e0, e1, -⟩ := idx_facts t
  funext y
  show V c main_v41 (((cfg1.win 3).blk t).view.emb y) = V c main_v41 y
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 8 + 1 * (y 1).val = (y 1).val; omega
  rw [h]

/-- The second weight matrix is read whole at every point. -/
theorem blk4_eq : (Gen.iblk1 V c 4 t : Vec Ideal S128x8 .f32) = V c main_v40 := by
  obtain ⟨-, -, -, -, -, -, -, -, e0, e1, -⟩ := idx_facts t
  funext y
  show V c main_v40 (((cfg1.win 4).blk t).view.emb y) = V c main_v40 y
  have h : ((cfg1.win 4).blk t).view.emb y = y := by
    funext a; apply Fin.ext
    match a with
    | ⟨0, _⟩ => show win1_4.index t (0 : Fin 2) * 128 + 1 * (y 0).val = (y 0).val; omega
    | ⟨1, _⟩ => show win1_4.index t (1 : Fin 2) * 8 + 1 * (y 1).val = (y 1).val; omega
  rw [h]

/-- Entry (r, q) of block t of the first output sits at (2000·t + r, q) of its array. -/
theorem emb5 (r : Fin 2000) (q : Fin 8) (hp : t.val * 2000 + r.val < 50000) :
    ((cfg1.win 5).blk t).view.emb (ix2 r q) = ix2 (⟨t.val * 2000 + r.val, hp⟩ : Fin 50000) q := by
  obtain ⟨-, -, -, -, -, -, -, -, -, -, e0, e1, -⟩ := idx_facts t
  funext a; apply Fin.ext
  match a with
  | ⟨0, _⟩ => show win1_5.index t (0 : Fin 2) * 2000 + 1 * r.val = t.val * 2000 + r.val; omega
  | ⟨1, _⟩ => show win1_5.index t (1 : Fin 2) * 8 + 1 * q.val = q.val; omega

/-- Entry (r, q) of block t of the second output sits at (2000·t + r, q) of its array. -/
theorem emb6 (r : Fin 2000) (q : Fin 8) (hp : t.val * 2000 + r.val < 50000) :
    ((cfg1.win 6).blk t).view.emb (ix2 r q) = ix2 (⟨t.val * 2000 + r.val, hp⟩ : Fin 50000) q := by
  obtain ⟨-, -, -, -, -, -, -, -, -, -, -, -, e0, e1⟩ := idx_facts t
  funext a; apply Fin.ext
  match a with
  | ⟨0, _⟩ => show win1_6.index t (0 : Fin 2) * 2000 + 1 * r.val = t.val * 2000 + r.val; omega
  | ⟨1, _⟩ => show win1_6.index t (1 : Fin 2) * 8 + 1 * q.val = q.val; omega

/-- The linear entry of the input blocks at point t, row r, is the linear entry of the arrays at row 2000·t + r. -/
theorem lin_block (r : Fin 2000) (q : Fin 8) (hp : t.val * 2000 + r.val < 50000) :
    Cert.GraphSpec.linAt (n := 2000) (d := 128) (e := 8) (Gen.iblk1 V c 0 t) (Gen.iblk1 V c 1 t) (Gen.iblk1 V c 2 t)
        (Gen.iblk1 V c 4 t) (Gen.iblk1 V c 3 t) r q
      = Cert.GraphSpec.linAt (n := 50000) (d := 128) (e := 8) (V c main_v38) (V c main_v26) (V c main_v39) (V c main_v40)
        (V c main_v41) (⟨t.val * 2000 + r.val, hp⟩ : Fin 50000) q := by
  rw [blk2_eq V c t, blk3_eq V c t, blk4_eq V c t]
  exact linAt_rows (V c main_v38) (V c main_v26) (Gen.iblk1 V c 0 t) (Gen.iblk1 V c 1 t) (V c main_v39) (V c main_v40)
    (V c main_v41) r ⟨t.val * 2000 + r.val, hp⟩ q (fun k => blk0_read V c t r k hp) (fun k => blk1_read V c t r k hp)

end Blocks

section Arrays

variable (V : (c : Dev nD) → (b : Ref sig .tc) → Buf (Elt Ideal) ((c : Thread nD τ).loc b)) (c : Dev nD)

/-- What point t writes back to the first output is block t of the linear layer of the whole arrays. -/
theorem flushed5_eq (t : Fin cfg1.N) :
    (Gen.dat1 (F := Ideal) V c).flushed 5 t = ((cfg1.win 5).blk t).view.read (Elt Ideal)
      (Cert.GraphSpec.lin (n := 50000) (d := 128) (e := 8) (V c main_v38) (V c main_v26) (V c main_v39) (V c main_v40) (V c main_v41)) := by
  show (cfg1.win 5).cut (grid1.coords t) ((Gen.dat1 (F := Ideal) V c).after 5 t) = _
  rw [Gen.after1_5]
  refine funext fun (j : S2000x8.Idx) => ?_
  obtain ⟨r, q, rfl⟩ : ∃ (r : Fin 2000) (q : Fin 8), j = ix2 r q := ⟨j 0, j 1, eq_ix2 j⟩
  have hp : t.val * 2000 + r.val < 50000 := by have := point_lt t; have := r.isLt; omega
  show Gen.out1_5 (F := Ideal) (Gen.iblk1 V c 0 t) (Gen.iblk1 V c 1 t) (Gen.iblk1 V c 2 t) (Gen.iblk1 V c 3 t) (Gen.iblk1 V c 4 t) (ix2 r q)
    = Cert.GraphSpec.lin (n := 50000) (d := 128) (e := 8) (V c main_v38) (V c main_v26) (V c main_v39) (V c main_v40) (V c main_v41)
        (((cfg1.win 5).blk t).view.emb (ix2 r q))
  rw [emb5 t r q hp, Cert.GraphSpec.lin_ix2, out5_entry]
  exact lin_block V c t r q hp

/-- What point t writes back to the second output is block t of the row-wise log-softmax of that linear layer: row r of
    the block needs the whole row 2000·t + r of linear entries, every column of it. -/
theorem flushed6_eq (t : Fin cfg1.N) :
    (Gen.dat1 (F := Ideal) V c).flushed 6 t = ((cfg1.win 6).blk t).view.read (Elt Ideal)
      (Cert.GraphSpec.logsm (n := 50000) (d := 128) (e := 8) (V c main_v38) (V c main_v26) (V c main_v39) (V c main_v40) (V c main_v41)) := by
  show (cfg1.win 6).cut (grid1.coords t) ((Gen.dat1 (F := Ideal) V c).after 6 t) = _
  rw [Gen.after1_6]
  refine funext fun (j : S2000x8.Idx) => ?_
  obtain ⟨r, q, rfl⟩ : ∃ (r : Fin 2000) (q : Fin 8), j = ix2 r q := ⟨j 0, j 1, eq_ix2 j⟩
  have hp : t.val * 2000 + r.val < 50000 := by have := point_lt t; have := r.isLt; omega
  show Gen.out1_6 (F := Ideal) (Gen.iblk1 V c 0 t) (Gen.iblk1 V c 1 t) (Gen.iblk1 V c 2 t) (Gen.iblk1 V c 3 t) (Gen.iblk1 V c 4 t) (ix2 r q)
    = Cert.GraphSpec.logsm (n := 50000) (d := 128) (e := 8) (V c main_v38) (V c main_v26) (V c main_v39) (V c main_v40) (V c main_v41)
        (((cfg1.win 6).blk t).view.emb (ix2 r q))
  rw [emb6 t r q hp, Cert.GraphSpec.logsm_ix2, out6_entry]
  exact congrArg (fun h => Cert.GraphSpec.logsmAt h q) (funext fun j => lin_block V c t r j hp)

/-- An index of the first output's array is in point t's block iff each coordinate is in the block's range. -/
theorem mem_blk5 (t : Fin cfg1.N) (i : S50000x8.Idx) :
    i ∈ ((cfg1.win 5).blk t).view.set ↔ ∀ a : Fin 2, win1_5.index t a * S2000x8.size a ≤ (i a).val
      ∧ (i a).val < win1_5.index t a * S2000x8.size a + S2000x8.size a := by
  show i ∈ ((View.whole main_v42_0).slice (win1_5.rect t)).set ↔ _
  rw [View.set_slice_whole, Rect.mem_set_unit]
  exact Iff.rfl

theorem mem_blk6 (t : Fin cfg1.N) (i : S50000x8.Idx) :
    i ∈ ((cfg1.win 6).blk t).view.set ↔ ∀ a : Fin 2, win1_6.index t a * S2000x8.size a ≤ (i a).val
      ∧ (i a).val < win1_6.index t a * S2000x8.size a + S2000x8.size a := by
  show i ∈ ((View.whole main_v42_1).slice (win1_6.rect t)).set ↔ _
  rw [View.set_slice_whole, Rect.mem_set_unit]
  exact Iff.rfl

/-- The point whose block holds row p is p / 2000. -/
theorem point_of_row (i : S50000x8.Idx) : ∃ t : Fin cfg1.N, t.val = (i 0).val / 2000 := by
  have hi0 : (i 0).val < 50000 := (i 0).isLt
  exact ⟨⟨(i 0).val / 2000, by show (i 0).val / 2000 < 25; omega⟩, rfl⟩

/-- Every entry of the first output's array is in some point's block. -/
theorem cover5 (i : S50000x8.Idx) :
    ∃ t : Fin cfg1.N, (cfg1.win 5).flush t = true ∧ i ∈ ((cfg1.win 5).blk t).view.set := by
  have hi0 : (i 0).val < 50000 := (i 0).isLt
  have hi1 : (i 1).val < 8 := (i 1).isLt
  obtain ⟨t, ht⟩ := point_of_row i
  obtain ⟨-, -, -, -, -, -, -, -, -, -, e0, e1, -⟩ := idx_facts t
  refine ⟨t, Gen.flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 8 ≤ (i 1).val ∧ (i 1).val < win1_5.index t (1 : Fin 2) * 8 + 8; omega

/-- Every entry of the second output's array is in some point's block. -/
theorem cover6 (i : S50000x8.Idx) :
    ∃ t : Fin cfg1.N, (cfg1.win 6).flush t = true ∧ i ∈ ((cfg1.win 6).blk t).view.set := by
  have hi0 : (i 0).val < 50000 := (i 0).isLt
  have hi1 : (i 1).val < 8 := (i 1).isLt
  obtain ⟨t, ht⟩ := point_of_row i
  obtain ⟨-, -, -, -, -, -, -, -, -, -, -, -, e0, e1⟩ := idx_facts t
  refine ⟨t, Gen.flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 8 ≤ (i 1).val ∧ (i 1).val < win1_6.index t (1 : Fin 2) * 8 + 8; omega

end Arrays

/-- After the region the first output array holds the linear layer of the arrays the region found. -/
theorem final_lin (V : (c : Dev nD) → (b : Ref sig .tc) → Buf (Elt Ideal) ((c : Thread nD τ).loc b)) (c : Dev nD) :
    (Gen.dat1 (F := Ideal) V c).arrAt 5 cfg1.N
      = Cert.GraphSpec.lin (n := 50000) (d := 128) (e := 8) (V c main_v38) (V c main_v26) (V c main_v39) (V c main_v40) (V c main_v41) :=
  (Gen.dat1 (F := Ideal) V c).arrAt_eq_of_cover 5 _ (fun t _ => flushed5_eq V c t) cover5

/-- After the region the second output array holds the row-wise log-softmax of that linear layer. -/
theorem final_logsm (V : (c : Dev nD) → (b : Ref sig .tc) → Buf (Elt Ideal) ((c : Thread nD τ).loc b)) (c : Dev nD) :
    (Gen.dat1 (F := Ideal) V c).arrAt 6 cfg1.N
      = Cert.GraphSpec.logsm (n := 50000) (d := 128) (e := 8) (V c main_v38) (V c main_v26) (V c main_v39) (V c main_v40) (V c main_v41) :=
  (Gen.dat1 (F := Ideal) V c).arrAt_eq_of_cover 6 _ (fun t _ => flushed6_eq V c t) cover6

end Cert.KernelIdeal.Region1

end
-- ==== Proof.RefValue.lean ====
/-
  The reference program, entry by entry.

  Each stage of the reference is a function of the arguments; read at an entry (p, q), a product of two matrices is the
  sum over the contracted axis of the (p, k) entry times the (k, q) entry, a bias vector made into one row and repeated
  down the rows is the row's entry at q, a transpose swaps the two coordinates, and the elementwise stages act on the
  entry alone.  Chaining these readings:

  * the hidden features are, at (p, q), the linear entry
        (Σ_k mean[p,k] · wr[k,q]) + b[0,q] + Σ_k x[p,k] · wo[k,q]
    clamped below at zero and multiplied by the keep mask's entry, where mean is the neighbourhood mean of the node
    features (kept as one function, never opened);
  * the second neighbourhood mean is the same tree of operations as the first, applied to the hidden features;
  * the first output is, at (p, q), the linear entry of that second mean and the hidden features;
  * the second output is its row-wise log-softmax: the row's maximum is a fold of max over the row's eight entries from
    negative infinity (a further maximum with negative infinity changes nothing), the shifted entries are exponentiated
    and summed along the row from zero, and the logarithm of that sum is subtracted from the shifted entry.
-/
import proofs.«178852_j52999896432995_1_alg».proof.Proof.RefRead
import proofs.«178852_j52999896432995_1_alg».proof.Proof.Spec
import Idealize.ShloMosaic.Lib.ValueIdx
import Idealize.ShloMosaic.PureOps.Reduce
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x0 : (⟨S50000x128, .f32⟩ : BufTy).Contents (Elt Ideal)) (x1 : (⟨S2x800000, .i32⟩ : BufTy).Contents (Elt Ideal))
  (x2 : (⟨S50000x128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S8x128, .f32⟩ : BufTy).Contents (Elt Ideal)) (x7 : (⟨S8, .f32⟩ : BufTy).Contents (Elt Ideal))
  (x8 : (⟨S8x128, .f32⟩ : BufTy).Contents (Elt Ideal))

/-! ## The operand indices of the products and broadcasts, at an entry given by its row and column -/

theorem lidx24 (p : Fin 50000) (q k : Fin 128) : lidx_main_v24 (ix2 p q) k = ix2 p k :=
  funext fun a => Fin.ext (by match a with | ⟨0, _⟩ => rfl | ⟨1, _⟩ => rfl)
theorem ridx24 (p : Fin 50000) (q k : Fin 128) : ridx_main_v24 (ix2 p q) k = ix2 k q :=
  funext fun a => Fin.ext (by match a with | ⟨0, _⟩ => rfl | ⟨1, _⟩ => rfl)
theorem lidx29 (p : Fin 50000) (q k : Fin 128) : lidx_main_v29 (ix2 p q) k = ix2 p k :=
  funext fun a => Fin.ext (by match a with | ⟨0, _⟩ => rfl | ⟨1, _⟩ => rfl)
theorem ridx29 (p : Fin 50000) (q k : Fin 128) : ridx_main_v29 (ix2 p q) k = ix2 k q :=
  funext fun a => Fin.ext (by match a with | ⟨0, _⟩ => rfl | ⟨1, _⟩ => rfl)
theorem idx26 (p : Fin 50000) (q : Fin 128) : idx_main_v26 (ix2 p q) = ix2 (0 : Fin 1) q :=
  funext fun a => Fin.ext (by match a with | ⟨0, _⟩ => rfl | ⟨1, _⟩ => rfl)
theorem lidx53 (p : Fin 50000) (q : Fin 8) (k : Fin 128) : lidx_main_v53 (ix2 p q) k = ix2 p k :=
  funext fun a => Fin.ext (by match a with | ⟨0, _⟩ => rfl | ⟨1, _⟩ => rfl)
theorem ridx53 (p : Fin 50000) (q : Fin 8) (k : Fin 128) : ridx_main_v53 (ix2 p q) k = ix2 k q :=
  funext fun a => Fin.ext (by match a with | ⟨0, _⟩ => rfl | ⟨1, _⟩ => rfl)
theorem lidx58 (p : Fin 50000) (q : Fin 8) (k : Fin 128) : lidx_main_v58 (ix2 p q) k = ix2 p k :=
  funext fun a => Fin.ext (by match a with | ⟨0, _⟩ => rfl | ⟨1, _⟩ => rfl)
theorem ridx58 (p : Fin 50000) (q : Fin 8) (k : Fin 128) : ridx_main_v58 (ix2 p q) k = ix2 k q :=
  funext fun a => Fin.ext (by match a with | ⟨0, _⟩ => rfl | ⟨1, _⟩ => rfl)
theorem idx55 (p : Fin 50000) (q : Fin 8) : idx_main_v55 (ix2 p q) = ix2 (0 : Fin 1) q :=
  funext fun a => Fin.ext (by match a with | ⟨0, _⟩ => rfl | ⟨1, _⟩ => rfl)

/-! ## The hidden layer -/

/-- The reference's hidden features, entry by entry: the linear layer of the neighbourhood mean and the node's own
    features, clamped below at zero, times the keep mask. -/
theorem hidden_eq :
    val_main_v32 (F := Ideal) x0 x1 x2 x3 x4 x5
      = Cert.GraphSpec.hidden (n := 50000) (d := 128) (e := 128) (val_main_v22 (F := Ideal) x0 x1) x0 (val_main_v23 (F := Ideal) x3)
          (val_main_v28 (F := Ideal) x5) (val_main_v25 (F := Ideal) x4) x2 := by
  refine funext fun (i : S50000x128.Idx) => ?_
  obtain ⟨p, q, rfl⟩ : ∃ (p : Fin 50000) (q : Fin 128), i = ix2 p q := ⟨i 0, i 1, eq_ix2 i⟩
  rw [Cert.GraphSpec.hidden_ix2, val_main_v32_apply, val_main_v31_apply, val_main_v30_apply, val_main_v27_apply,
    val_main_v24_apply, val_main_v26_apply, val_main_v29_apply, val_main_call0_v0_apply, val_main_call0_cst_apply]
  simp only [lidx24, ridx24, idx26, lidx29, ridx29]
  rfl

/-- The second neighbourhood mean is the first one's operations applied to the hidden features: the two are the same
    tree of gather, scatter-add, degree count and division over the same edge list. -/
theorem mean_again :
    val_main_v51 (F := Ideal) x0 x1 x2 x3 x4 x5
      = val_main_v22 (F := Ideal) (val_main_v32 (F := Ideal) x0 x1 x2 x3 x4 x5) x1 := by
  unfold val_main_v51 val_main_v42 val_main_v39
  generalize val_main_v32 (F := Ideal) x0 x1 x2 x3 x4 x5 = H
  rfl

/-! ## The output layer -/

/-- The reference's first output, entry by entry: the linear layer of the second neighbourhood mean and the hidden
    features. -/
theorem lin_eq :
    val_main_v59 (F := Ideal) x0 x1 x2 x3 x4 x5 x6 x7 x8
      = Cert.GraphSpec.lin (n := 50000) (d := 128) (e := 8) (val_main_v51 (F := Ideal) x0 x1 x2 x3 x4 x5)
          (val_main_v32 (F := Ideal) x0 x1 x2 x3 x4 x5) (val_main_v52 (F := Ideal) x6) (val_main_v57 (F := Ideal) x8)
          (val_main_v54 (F := Ideal) x7) := by
  refine funext fun (i : S50000x8.Idx) => ?_
  obtain ⟨p, q, rfl⟩ : ∃ (p : Fin 50000) (q : Fin 8), i = ix2 p q := ⟨i 0, i 1, eq_ix2 i⟩
  rw [Cert.GraphSpec.lin_ix2, val_main_v59_apply, val_main_v56_apply, val_main_v53_apply, val_main_v55_apply,
    val_main_v58_apply]
  simp only [lidx53, ridx53, idx55, lidx58, ridx58]
  rfl

/-! ## The row-wise log-softmax of the first output -/

theorem idx_col (p : Fin 50000) (q : Fin 8) : idx_main_call1_v3 (idx_main_call1_v4 (ix2 p q)) = ix1 p :=
  funext fun a => Fin.ext (by match a with | ⟨0, _⟩ => rfl)
theorem idx_logcol (p : Fin 50000) (q : Fin 8) : idx_main_call1_v8 (idx_main_call1_v10 (ix2 p q)) = ix1 p :=
  funext fun a => Fin.ext (by match a with | ⟨0, _⟩ => rfl)
theorem idx_lane (p : Fin 50000) (k : Fin 8) : idx_main_call1_v7 (ix1 p) k = ix2 p k :=
  funext fun a => Fin.ext (by match a with | ⟨0, _⟩ => rfl | ⟨1, _⟩ => rfl)

/-- A reduction of a [50000,8] array along its rows with a maximum body, from negative infinity: at row p the fold of
    max over the row's eight entries, which is the row's maximum. -/
theorem reduce_max_row (Y : FVec Ideal S50000x8 .f32) (p : Fin 50000) :
    Host.reduce FloatOps.maximumf Y (val_main_call1_cst (F := Ideal)) reducesTo_S50000x8_S50000_d1 h_S_ (ix1 p)
      = Cert.GraphSpec.rowMax (fun k : Fin 8 => Y (ix2 p k)) := by
  have hR : S50000x8.Reduces [1] S50000 := by decide
  rw [Host.reduce_eq_fold_single FloatOps.maximumf Y _ reducesTo_S50000x8_S50000_d1 hR h_S_]
  have hf : (Y ∘ hR.lift (ix1 p)) = fun k : Fin 8 => Y (ix2 p k) :=
    funext fun k => congrArg Y (funext fun a => Fin.ext (by match a with | ⟨0, _⟩ => rfl | ⟨1, _⟩ => rfl))
  unfold Cert.GraphSpec.rowMax
  exact congrArg (fun f => Finset.fold max (Ideal.ofBits .f32 0xFF800000#32) f (Finset.univ : Finset (Fin 8))) hf

/-- The column the reference subtracts, at (p, q): the maximum of row p of the first output. Taking the maximum with
    negative infinity once more changes nothing. -/
theorem col_max (p : Fin 50000) (q : Fin 8) :
    val_main_call1_v4 (F := Ideal) x0 x1 x2 x3 x4 x5 x6 x7 x8 (ix2 p q)
      = Cert.GraphSpec.rowMax (fun k : Fin 8 => val_main_v59 (F := Ideal) x0 x1 x2 x3 x4 x5 x6 x7 x8 (ix2 p k)) := by
  rw [val_main_call1_v4_apply, val_main_call1_v3_apply, idx_col, val_main_call1_v2_apply, val_main_call1_v1_apply,
    val_main_call1_cst_0_apply]
  unfold val_main_call1_v0
  rw [reduce_max_row]
  exact Cert.GraphSpec.max_bot_rowMax _

/-- The first output minus its row's maximum. -/
theorem shifted (p : Fin 50000) (q : Fin 8) :
    val_main_call1_v5 (F := Ideal) x0 x1 x2 x3 x4 x5 x6 x7 x8 (ix2 p q)
      = val_main_v59 (F := Ideal) x0 x1 x2 x3 x4 x5 x6 x7 x8 (ix2 p q)
        - Cert.GraphSpec.rowMax (fun k : Fin 8 => val_main_v59 (F := Ideal) x0 x1 x2 x3 x4 x5 x6 x7 x8 (ix2 p k)) := by
  rw [val_main_call1_v5_apply, col_max]
  rfl

/-- The sum along row p of the exponentials of the shifted entries; its initial value is zero. -/
theorem sum_exp (p : Fin 50000) :
    val_main_call1_v7 (F := Ideal) x0 x1 x2 x3 x4 x5 x6 x7 x8 (ix1 p)
      = ∑ j : Fin 8, Ideal.exp (val_main_v59 (F := Ideal) x0 x1 x2 x3 x4 x5 x6 x7 x8 (ix2 p j)
          - Cert.GraphSpec.rowMax (fun k : Fin 8 => val_main_v59 (F := Ideal) x0 x1 x2 x3 x4 x5 x6 x7 x8 (ix2 p k))) := by
  rw [val_main_call1_v7_apply, val_main_call1_cst_1_apply]
  show Ideal.ofBits .f32 0x00000000#32 + _ = _
  rw [Ideal.ofBits_zero_f32, zero_add]
  refine Finset.sum_congr rfl fun j _ => ?_
  rw [idx_lane, val_main_call1_v6_apply, shifted]
  exact Ideal.hostUnary_exp_def _

/-- The reference's second output, entry by entry: the log-softmax of the row of the first output. -/
theorem logsm_eq :
    val_main_v60 (F := Ideal) x0 x1 x2 x3 x4 x5 x6 x7 x8
      = Cert.GraphSpec.logsm (n := 50000) (d := 128) (e := 8) (val_main_v51 (F := Ideal) x0 x1 x2 x3 x4 x5)
          (val_main_v32 (F := Ideal) x0 x1 x2 x3 x4 x5) (val_main_v52 (F := Ideal) x6) (val_main_v57 (F := Ideal) x8)
          (val_main_v54 (F := Ideal) x7) := by
  refine funext fun (i : S50000x8.Idx) => ?_
  obtain ⟨p, q, rfl⟩ : ∃ (p : Fin 50000) (q : Fin 8), i = ix2 p q := ⟨i 0, i 1, eq_ix2 i⟩
  have hrow : (fun j : Fin 8 => Cert.GraphSpec.linAt (n := 50000) (d := 128) (e := 8) (val_main_v51 (F := Ideal) x0 x1 x2 x3 x4 x5)
      (val_main_v32 (F := Ideal) x0 x1 x2 x3 x4 x5) (val_main_v52 (F := Ideal) x6) (val_main_v57 (F := Ideal) x8)
      (val_main_v54 (F := Ideal) x7) p j)
      = fun j : Fin 8 => val_main_v59 (F := Ideal) x0 x1 x2 x3 x4 x5 x6 x7 x8 (ix2 p j) :=
    funext fun j => (congrFun (lin_eq x0 x1 x2 x3 x4 x5 x6 x7 x8) (ix2 p j)).symm
  rw [Cert.GraphSpec.logsm_ix2, hrow, val_main_v60_apply, shifted, val_main_call1_v10_apply, val_main_call1_v9_apply,
    val_main_call1_v8_apply, idx_logcol, sum_exp]
  simp only [Ideal.subf_def, Ideal.hostUnary_log_def, Cert.GraphSpec.logsmAt]

end Cert.ReferenceIdeal.RefValue

end
-- ==== Proof.Bridge.lean ====
/-
  The two programs' results as one pair of functions of the nine arguments.

  Write  mean(F)  for the neighbourhood mean of a feature array F along the edge list (one function of F and the edge
  list: the reference's own stage), and  W^T  for a transposed weight matrix.  The hidden features are
      H = hidden( mean(x), x, W1rel^T, W1root^T, b1, mask )
  and the two results are
      out0 = lin  ( mean(H), H, W2rel^T, W2root^T, b2 ) ,     out1 = logsm( mean(H), H, W2rel^T, W2root^T, b2 ) .
  The kernel reaches them region by region: region 0's output array is H because its entry arrays are mean(x), x, the
  transposed weights, the bias row and the mask; region 1's two output arrays are out0 and out1 because its entry arrays
  are mean(H), H and the second layer's weights and bias row.  The reference reaches them stage by stage.  The two
  programs view the bias vector as a one-row matrix differently (a reshape, a broadcast): the layers read that row's
  entries only, which are the vector's entries either way.
-/
import proofs.«178852_j52999896432995_1_alg».proof.Proof.Spec
import proofs.«178852_j52999896432995_1_alg».proof.Proof.BiasRow
import proofs.«178852_j52999896432995_1_alg».proof.Proof.HostChain
import proofs.«178852_j52999896432995_1_alg».proof.Proof.Region0
import proofs.«178852_j52999896432995_1_alg».proof.Proof.Region1
import proofs.«178852_j52999896432995_1_alg».proof.Proof.RefRead
import proofs.«178852_j52999896432995_1_alg».proof.Proof.RefValue

set_option maxRecDepth 16384

noncomputable section

namespace Cert.Bridge

open Idealize.ShloMosaic Idealize.ShloMosaic.ValueIdx Idealize.ShloMosaic.TcCoe Idealize.SL.Sem
open Cert.ReferenceIdeal Cert.ReferenceIdeal.Read

/-- The hidden features as a function of the first six arguments. -/
def hid (x0 : (⟨S50000x128, .f32⟩ : BufTy).Contents (Elt Ideal)) (x1 : (⟨S2x800000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) : FVec Ideal ⟨2, ![50000, 128]⟩ .f32 :=
  Cert.GraphSpec.hidden (n := 50000) (d := 128) (e := 128) (val_main_v22 (F := Ideal) x0 x1) x0 (val_main_v23 (F := Ideal) x3)
    (val_main_v28 (F := Ideal) x5) (val_main_v25 (F := Ideal) x4) x2

/-- The first result: the output layer of the neighbourhood mean of the hidden features. -/
def out0 (x0 : (⟨S50000x128, .f32⟩ : BufTy).Contents (Elt Ideal)) (x1 : (⟨S2x800000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S8x128, .f32⟩ : BufTy).Contents (Elt Ideal)) (x7 : (⟨S8, .f32⟩ : BufTy).Contents (Elt Ideal)) (x8 : (⟨S8x128, .f32⟩ : BufTy).Contents (Elt Ideal)) : FVec Ideal ⟨2, ![50000, 8]⟩ .f32 :=
  Cert.GraphSpec.lin (n := 50000) (d := 128) (e := 8) (val_main_v22 (F := Ideal) (hid x0 x1 x2 x3 x4 x5) x1) (hid x0 x1 x2 x3 x4 x5)
    (val_main_v52 (F := Ideal) x6) (val_main_v57 (F := Ideal) x8) (val_main_v54 (F := Ideal) x7)

/-- The second result: the row-wise log-softmax of the first. -/
def out1 (x0 : (⟨S50000x128, .f32⟩ : BufTy).Contents (Elt Ideal)) (x1 : (⟨S2x800000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S8x128, .f32⟩ : BufTy).Contents (Elt Ideal)) (x7 : (⟨S8, .f32⟩ : BufTy).Contents (Elt Ideal)) (x8 : (⟨S8x128, .f32⟩ : BufTy).Contents (Elt Ideal)) : FVec Ideal ⟨2, ![50000, 8]⟩ .f32 :=
  Cert.GraphSpec.logsm (n := 50000) (d := 128) (e := 8) (val_main_v22 (F := Ideal) (hid x0 x1 x2 x3 x4 x5) x1) (hid x0 x1 x2 x3 x4 x5)
    (val_main_v52 (F := Ideal) x6) (val_main_v57 (F := Ideal) x8) (val_main_v54 (F := Ideal) x7)

/-! ## The reference's last stages -/

theorem ref_out0 (x0 : (⟨S50000x128, .f32⟩ : BufTy).Contents (Elt Ideal)) (x1 : (⟨S2x800000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S8x128, .f32⟩ : BufTy).Contents (Elt Ideal)) (x7 : (⟨S8, .f32⟩ : BufTy).Contents (Elt Ideal)) (x8 : (⟨S8x128, .f32⟩ : BufTy).Contents (Elt Ideal)) : val_main_v59 (F := Ideal) x0 x1 x2 x3 x4 x5 x6 x7 x8 = out0 x0 x1 x2 x3 x4 x5 x6 x7 x8 := by
  rw [Cert.ReferenceIdeal.RefValue.lin_eq, Cert.ReferenceIdeal.RefValue.mean_again, Cert.ReferenceIdeal.RefValue.hidden_eq]
  rfl

theorem ref_out1 (x0 : (⟨S50000x128, .f32⟩ : BufTy).Contents (Elt Ideal)) (x1 : (⟨S2x800000, .i32⟩ : BufTy).Contents (Elt Ideal)) (x2 : (⟨S50000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S8x128, .f32⟩ : BufTy).Contents (Elt Ideal)) (x7 : (⟨S8, .f32⟩ : BufTy).Contents (Elt Ideal)) (x8 : (⟨S8x128, .f32⟩ : BufTy).Contents (Elt Ideal)) : val_main_v60 (F := Ideal) x0 x1 x2 x3 x4 x5 x6 x7 x8 = out1 x0 x1 x2 x3 x4 x5 x6 x7 x8 := by
  rw [Cert.ReferenceIdeal.RefValue.logsm_eq, Cert.ReferenceIdeal.RefValue.mean_again, Cert.ReferenceIdeal.RefValue.hidden_eq]
  rfl

/-! ## The two views of a bias vector as a one-row matrix agree on the row's entries -/

theorem bias1_row (x4 : (⟨S128, .f32⟩ : BufTy).Contents (Elt Ideal)) (h : (⟨1, ![128]⟩ : Shape).ShapeCasts ⟨2, ![1, 128]⟩) (q : Fin 128) :
    shapeCast ⟨2, ![1, 128]⟩ x4 h (ix2 (0 : Fin 1) q) = val_main_v25 (F := Ideal) x4 (ix2 (0 : Fin 1) q) := by
  unfold val_main_v25
  exact (Cert.BiasRow.shapeCast_row_apply x4 h q).trans (Cert.BiasRow.broadcastInDim_row_apply x4 _ q).symm

theorem bias2_row (x7 : (⟨S8, .f32⟩ : BufTy).Contents (Elt Ideal)) (h : (⟨1, ![8]⟩ : Shape).ShapeCasts ⟨2, ![1, 8]⟩) (q : Fin 8) :
    shapeCast ⟨2, ![1, 8]⟩ x7 h (ix2 (0 : Fin 1) q) = val_main_v54 (F := Ideal) x7 (ix2 (0 : Fin 1) q) := by
  unfold val_main_v54
  exact (Cert.BiasRow.shapeCast_row_apply x7 h q).trans (Cert.BiasRow.broadcastInDim_row_apply x7 _ q).symm

/-! ## The kernel's regions -/

section Kernel

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Region 0 writes the hidden features. -/
theorem kernel_hidden : (dat0 (V1 m ρ) c).arrAt 6 Cert.KernelIdeal.cfg0.N
    = hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Region0.final (V1 m ρ) c, Cert.KernelIdeal.HostChain.entry0_agg, Cert.KernelIdeal.HostChain.entry0_x,
    Cert.KernelIdeal.HostChain.entry0_mask, Cert.KernelIdeal.HostChain.entry0_wr, Cert.KernelIdeal.HostChain.entry0_wo,
    Cert.KernelIdeal.HostChain.entry0_b]
  exact Cert.BiasRow.hidden_congr_bias _ _ _ _ _ _ _ (fun q => bias1_row _ _ q)

/-- Region 1's first output array is the first result. -/
theorem kernel_out0 : (dat1 (V3 m ρ) c).arrAt 5 Cert.KernelIdeal.cfg1.N
    = out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Region1.final_lin (V3 m ρ) c, Cert.KernelIdeal.HostChain.entry1_agg, Cert.KernelIdeal.HostChain.entry1_h,
    Cert.KernelIdeal.HostChain.entry1_wr, Cert.KernelIdeal.HostChain.entry1_wo, Cert.KernelIdeal.HostChain.entry1_b, kernel_hidden]
  exact Cert.BiasRow.lin_congr_bias _ _ _ _ _ _ (fun q => bias2_row _ _ q)

/-- Region 1's second output array is the second result. -/
theorem kernel_out1 : (dat1 (V3 m ρ) c).arrAt 6 Cert.KernelIdeal.cfg1.N
    = out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Region1.final_logsm (V3 m ρ) c, Cert.KernelIdeal.HostChain.entry1_agg, Cert.KernelIdeal.HostChain.entry1_h,
    Cert.KernelIdeal.HostChain.entry1_wr, Cert.KernelIdeal.HostChain.entry1_wo, Cert.KernelIdeal.HostChain.entry1_b, kernel_hidden]
  exact Cert.BiasRow.logsm_congr_bias _ _ _ _ _ _ (fun q => bias2_row _ _ q)

end Kernel

end Cert.Bridge

end
-- ==== Proof.RefRunValue.lean ====
/-
  The reference's run, with its two results as the two functions of the nine arguments.

  The reference is one straight line of host operations.  Its run ends with each result buffer at the operations'
  composed term of the launch contents of the arguments; that composed term is the last stage of the stage-by-stage
  reading of the program (the same tree of operations, named stage by stage), and the last stages are the output layer
  and its row-wise log-softmax of the neighbourhood mean of the hidden features.
-/
import proofs.«178852_j52999896432995_1_alg».proof.Proof.RefRun
import proofs.«178852_j52999896432995_1_alg».proof.Proof.RefRead
import proofs.«178852_j52999896432995_1_alg».proof.Proof.Bridge

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

/-- The first result's composed term is the stage that computes it. -/
theorem res0_eq_stage (m : (ℓ : Loc nD τ sig) → Buf (Elt Ideal) ℓ) (c : Dev nD) :
    Cert.ReferenceIdeal.Value.res_main_v59 (F := Ideal) m c = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v59; rfl

/-- The second result's composed term is the stage that computes it. -/
theorem res1_eq_stage (m : (ℓ : Loc nD τ sig) → Buf (Elt Ideal) ℓ) (c : Dev nD) :
    Cert.ReferenceIdeal.Value.res_main_v60 (F := Ideal) m c = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v60; rfl

/-- Every weakly fair execution of the reference from a memory with zero counters terminates with the two results at
    the two functions of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = Cert.Bridge.out0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread nD τ).loc main_v60) = Cert.Bridge.out1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  (θ_run defs _ _).mono
    (fun r h c => ⟨(h c).1.trans ((res0_eq_stage m c).trans (Cert.Bridge.ref_out0 _ _ _ _ _ _ _ _ _)),
      (h c).2.1.trans ((res1_eq_stage m c).trans (Cert.Bridge.ref_out1 _ _ _ _ _ _ _ _ _)), (h c).2.2⟩)
    (Cert.ReferenceIdeal.Value.run (F := Ideal) m ρ)

end Cert.ReferenceIdeal.RunValue

end
-- ==== Proof.lean ====
/-
  The certificate: a two-layer graph convolution computed by two kernel regions among host operations, against its
  plain reference, over the extended reals.

  Both programs compute, from node features x, an edge list, a keep mask and two layers' weights and biases,
      H    = max( mean(x)·W1rel^T + b1 + x·W1root^T , 0 ) · mask ,
      out0 = mean(H)·W2rel^T + b2 + H·W2root^T ,      out1 = row-wise log-softmax of out0 ,
  where mean(F) is, row by row, the mean over a node's incoming edges of the source nodes' rows of F (the sum scattered
  onto destinations, divided by the in-degree clamped below at one).  The kernel computes mean(·) on the host exactly as
  the reference does, and the two layers in two kernel regions, 2000 rows at a time; its matrix products contract the
  whole inner axis at once, as the reference's do, so every entry is the same sum of the same products, and no law
  beyond the commutativity built into a finite sum is used — in particular nothing about finiteness.  The ideal pass
  rewrote nothing, so the idealized kernel is the kernel's own text read over the extended reals.

  The three frames are the generated ones (the reference's is its run with the results dropped).  The algebraic claim
  pairs the kernel's run, with its two result arrays read (region 1's output arrays), with the reference's run, both
  brought to the same two functions of the nine arguments.
-/
import proofs.«178852_j52999896432995_1_alg».proof.Defs
import proofs.«178852_j52999896432995_1_alg».proof.Proof.Gen.Kernel
import proofs.«178852_j52999896432995_1_alg».proof.Proof.Gen.Kernel.Frame
import proofs.«178852_j52999896432995_1_alg».proof.Proof.Gen.KernelIdeal
import proofs.«178852_j52999896432995_1_alg».proof.Proof.Gen.KernelIdeal.Frame
import proofs.«178852_j52999896432995_1_alg».proof.Proof.Gen.ReferenceIdeal
import proofs.«178852_j52999896432995_1_alg».proof.Proof.Gen.Pre_finite_inputs
import proofs.«178852_j52999896432995_1_alg».proof.Proof.KernelRun
import proofs.«178852_j52999896432995_1_alg».proof.Proof.Bridge
import proofs.«178852_j52999896432995_1_alg».proof.Proof.RefRunValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.RunValue.run m ρ)

/-- The ideal pass rewrote nothing. -/
theorem preserves : Cert.preserves_Kernel_KernelIdeal := trivial

/-- Both runs end with the same two result arrays: the two functions of the nine arguments, read at arguments that agree. -/
theorem algebraic : Cert.algebraic_KernelIdeal_ReferenceIdeal := by
  intro m ρ m' ρ' _ hagree
  refine ⟨fun c => Cert.Bridge.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Bridge.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_out0 m ρ c), (h c).2.1.trans (Cert.Bridge.kernel_out1 m ρ c), (h c).2.2⟩)
      (Cert.KernelIdeal.RunValue.run (F := Ideal) m ρ)
  · refine (θ_run Cert.ReferenceIdeal.defs _ _).mono (fun r h c => ?_) (Cert.ReferenceIdeal.RunValue.run m' ρ')
    obtain ⟨h0, h1, hargs⟩ := h c
    obtain ⟨e0, e1, e2, e3, e4, e5, e6, e7, e8⟩ := hagree c
    refine ⟨h0.trans ?_, h1.trans ?_, hargs⟩
    · rw [e0, e1, e2, e3, e4, e5, e6, e7, e8]
    · rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
